-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x8192 : Shape := ⟨3, ![8, 2048, 8192]⟩
abbrev S2048x8192 : Shape := ⟨2, ![2048, 8192]⟩
abbrev S8192 : Shape := ⟨1, ![8192]⟩
abbrev S_ : Shape := ⟨0, ![]⟩

class Facts : Prop where
  bcast_S_S8x2048x8192 : S_.BroadcastsInDim S8x2048x8192 (![] : Fin 0 → Fin S8x2048x8192.rank)
  reducesTo_S8x2048x8192_S_d0_1_2 : S8x2048x8192.ReducesTo [0, 1, 2] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8x2048x8192 .f32) (main_arg1 : FVec F S2048x8192 .f32) (main_arg2 : FVec F S8192 .f32) : IVec S_ 1 :=
  let main_v0 : FVec F S8x2048x8192 .f32 := Host.absf main_arg0
  let main_cst : FVec F S_ .f32 := constant S_ .f32 0x7F800000#32
  let main_v1 : FVec F S8x2048x8192 .f32 := broadcastInDim S8x2048x8192 ![] bcast_S_S8x2048x8192 main_cst
  let main_v2 : IVec S8x2048x8192 1 := cmpf .olt main_v0 main_v1
  let main_c : IVec S_ 1 := constantI S_ 1 1#1
  let main_v3 : IVec S_ 1 := (fun x v => Host.reduce IntOp.andi x v reducesTo_S8x2048x8192_S_d0_1_2 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8x2048x8192 : Shape := ⟨3, ![8, 2048, 8192]⟩
abbrev S2048x8192 : Shape := ⟨2, ![2048, 8192]⟩
abbrev S8192 : Shape := ⟨1, ![8192]⟩
abbrev S1x8192 : Shape := ⟨2, ![1, 8192]⟩
abbrev S8x32x8192 : Shape := ⟨3, ![8, 32, 8192]⟩
abbrev S32x8192 : Shape := ⟨2, ![32, 8192]⟩
abbrev S1x32x8192 : Shape := ⟨3, ![1, 32, 8192]⟩
abbrev S32 : Shape := ⟨1, ![32]⟩
abbrev S32x1 : Shape := ⟨2, ![32, 1]⟩

abbrev nBuf : Space → Nat
  | .hbm => 6
  | .vmem => 9
  | .smem => 0
  | _ => 0

abbrev bufTy : (tb : Table) → Fin (tcTables nBuf tb) → BufTy
  | .hbm, ⟨0, _⟩ => ⟨S8x2048x8192, .f32⟩
  | .hbm, ⟨1, _⟩ => ⟨S2048x8192, .f32⟩
  | .hbm, ⟨2, _⟩ => ⟨S8192, .f32⟩
  | .hbm, ⟨3, _⟩ => ⟨S1x8192, .f32⟩
  | .hbm, ⟨4, _⟩ => ⟨S2048x8192, .f32⟩
  | .hbm, ⟨5, _⟩ => ⟨S2048x8192, .f32⟩
  | .local _ .vmem, ⟨0, _⟩ => ⟨S8x32x8192, .f32⟩
  | .local _ .vmem, ⟨1, _⟩ => ⟨S8x32x8192, .f32⟩
  | .local _ .vmem, ⟨2, _⟩ => ⟨S32x8192, .f32⟩
  | .local _ .vmem, ⟨3, _⟩ => ⟨S32x8192, .f32⟩
  | .local _ .vmem, ⟨4, _⟩ => ⟨S1x8192, .f32⟩
  | .local _ .vmem, ⟨5, _⟩ => ⟨S32x8192, .f32⟩
  | .local _ .vmem, ⟨6, _⟩ => ⟨S32x8192, .f32⟩
  | .local _ .vmem, ⟨7, _⟩ => ⟨S32x8192, .f32⟩
  | .local _ .vmem, ⟨8, _⟩ => ⟨S32x8192, .f32⟩
  | _, _ => ⟨S8x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192_S1x8192 : S8192.ShapeCasts S1x8192
  inb_S8x32x8192_S1x32x8192_0_0_0 : ∀ a, (![0, 0, 0] : Fin 3 → Nat) a + S1x32x8192.size a ≤ S8x32x8192.size a
  h_S1x32x8192 : 0 < S1x32x8192.numel
  shapeCasts_S1x32x8192_S32x8192 : S1x32x8192.ShapeCasts S32x8192
  inb_S8x32x8192_S1x32x8192_1_0_0 : ∀ a, (![1, 0, 0] : Fin 3 → Nat) a + S1x32x8192.size a ≤ S8x32x8192.size a
  inb_S8x32x8192_S1x32x8192_2_0_0 : ∀ a, (![2, 0, 0] : Fin 3 → Nat) a + S1x32x8192.size a ≤ S8x32x8192.size a
  inb_S8x32x8192_S1x32x8192_3_0_0 : ∀ a, (![3, 0, 0] : Fin 3 → Nat) a + S1x32x8192.size a ≤ S8x32x8192.size a
  inb_S8x32x8192_S1x32x8192_4_0_0 : ∀ a, (![4, 0, 0] : Fin 3 → Nat) a + S1x32x8192.size a ≤ S8x32x8192.size a
  inb_S8x32x8192_S1x32x8192_5_0_0 : ∀ a, (![5, 0, 0] : Fin 3 → Nat) a + S1x32x8192.size a ≤ S8x32x8192.size a
  inb_S8x32x8192_S1x32x8192_6_0_0 : ∀ a, (![6, 0, 0] : Fin 3 → Nat) a + S1x32x8192.size a ≤ S8x32x8192.size a
  inb_S8x32x8192_S1x32x8192_7_0_0 : ∀ a, (![7, 0, 0] : Fin 3 → Nat) a + S1x32x8192.size a ≤ S8x32x8192.size a
  inb_S32x8192_S32x8192_0_0 : ∀ a, (![0, 0] : Fin 2 → Nat) a + S32x8192.size a ≤ S32x8192.size a
  h_S32x8192 : 0 < S32x8192.numel
  reduces_S32x8192_S32 : S32x8192.Reduces [1] S32
  shapeCasts_S32_S32x1 : S32.ShapeCasts S32x1
  broadcasts_S32x1_S32x8192 : S32x1.Broadcasts S32x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S32x8192 : S1x8192.Broadcasts S32x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x8192.size a ≤ S8x2048x8192.size a
  hwx0_0 : ∀ i : grid0.Coords, EltTy.bits .f32 = 32 ∨ (Rect.block (s := S8x2048x8192) S8x32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8192.size a ≤ S2048x8192.size a
  hwx0_1 : ∀ i : grid0.Coords, EltTy.bits .f32 = 32 ∨ (Rect.block (s := S2048x8192) S32x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x8192.size a ≤ S2048x8192.size a
  hwx0_3 : ∀ i : grid0.Coords, EltTy.bits .f32 = 32 ∨ (Rect.block (s := S2048x8192) S32x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x8192.size a ≤ S2048x8192.size a
  hwx0_4 : ∀ i : grid0.Coords, EltTy.bits .f32 = 32 ∨ (Rect.block (s := S2048x8192) S32x8192.size (cc0_transform_4 i) (hinb0_4 i)).WholeWords (EltTy.packing .f32)

variable [Facts₀]

abbrev win0_0 : Pipeline.Window sig grid0 :=
  Pipeline.Window.ofSpec (Memref.whole main_arg0) S8x32x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S32x8192.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S32x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x8192 : Shape := ⟨3, ![8, 2048, 8192]⟩
abbrev S2048x8192 : Shape := ⟨2, ![2048, 8192]⟩
abbrev S8192 : Shape := ⟨1, ![8192]⟩
abbrev S_ : Shape := ⟨0, ![]⟩
abbrev S2048 : Shape := ⟨1, ![2048]⟩
abbrev S2048x1 : Shape := ⟨2, ![2048, 1]⟩
abbrev S1x8192 : Shape := ⟨2, ![1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x8192, .f32⟩
  | .hbm, ⟨1, _⟩ => ⟨S2048x8192, .f32⟩
  | .hbm, ⟨2, _⟩ => ⟨S8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x8192, .f32⟩
  | .hbm, ⟨18, _⟩ => ⟨S2048x8192, .f32⟩
  | .hbm, ⟨19, _⟩ => ⟨S1x8192, .f32⟩
  | .hbm, ⟨20, _⟩ => ⟨S2048x8192, .f32⟩
  | .hbm, ⟨21, _⟩ => ⟨S2048x8192, .f32⟩
  | _, _ => ⟨S8x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S8x2048x8192_S2048x8192_d0 : S8x2048x8192.ReducesTo [0] S2048x8192
  h_S_ : 0 < S_.numel
  reducesTo_S2048x8192_S2048_d1 : S2048x8192.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x8192_0_1 : S2048x1.BroadcastsInDim S2048x8192 (![0, 1] : Fin 2 → Fin S2048x8192.rank)
  bcast_S8192_S1x8192_1 : S8192.BroadcastsInDim S1x8192 (![1] : Fin 1 → Fin S1x8192.rank)
  bcast_S1x8192_S2048x8192_0_1 : S1x8192.BroadcastsInDim S2048x8192 (![0, 1] : Fin 2 → Fin S2048x8192.rank)

variable [Facts₀]

class Facts : Prop extends Facts₀ where

variable [Facts]
-- ==== Proof.Spec.lean ====
/-
  The function both programs compute, on the extended reals.

  Eight replicas `x k` of a `[2048, 8192]` activation are summed entry by entry and a residual `r` is added: the
  residual stream `s (p, q) = Σ k, x (k, p, q) + r (p, q)`. Each row `p` of `s` is then scaled by the reciprocal
  square root of its mean square plus a small constant, and each column `q` by a weight `w q`:
  `y (p, q) = s (p, q) · rsqrt ((Σ c, s (p, c)²) / 8192 + ε) · w q`.
  The divisor `8192` and `ε` are kept as the float words both programs print: the same word on both sides is never
  evaluated.

  The only law that joins the two programs is that a sum of eight terms taken one after the other from the left is the
  sum over `Fin 8` (`sum_left_eight`); addition on the extended reals is a commutative monoid, so no entry has to be finite.
-/
import Idealize.ShloMosaic.PureOps.Ideal
import Idealize.ShloMosaic.Lib.ValueIdx

noncomputable section

open scoped BigOperators

namespace Cert.AllReduceNorm

open Idealize.ShloMosaic Idealize.ShloMosaic.ValueIdx

/-- The residual stream at row `p`, column `q`: the eight replicas' entries summed, plus the residual's entry. -/
def residAt (x : FVec Ideal ⟨3, ![8, 2048, 8192]⟩ .f32) (r : FVec Ideal ⟨2, ![2048, 8192]⟩ .f32)
    (p : Fin 2048) (q : Fin 8192) : EReal :=
  (∑ k : Fin 8, x (ix3 k p q)) + r (ix2 p q)

/-- The residual stream as an array. -/
def resid (x : FVec Ideal ⟨3, ![8, 2048, 8192]⟩ .f32) (r : FVec Ideal ⟨2, ![2048, 8192]⟩ .f32) :
    FVec Ideal ⟨2, ![2048, 8192]⟩ .f32 :=
  fun i => residAt x r (i 0) (i 1)

/-- Row `p`'s scale: the reciprocal square root of the row's mean square plus `ε`. -/
def rowScale (x : FVec Ideal ⟨3, ![8, 2048, 8192]⟩ .f32) (r : FVec Ideal ⟨2, ![2048, 8192]⟩ .f32) (p : Fin 2048) : EReal :=
  Ideal.rsqrt (Ideal.div (∑ c : Fin 8192, residAt x r p c * residAt x r p c) (Ideal.ofBits .f32 0x46000000#32)
    + Ideal.ofBits .f32 0x358637BD#32)

/-- The normalised, weighted output at row `p`, column `q`. -/
def normedAt (x : FVec Ideal ⟨3, ![8, 2048, 8192]⟩ .f32) (r : FVec Ideal ⟨2, ![2048, 8192]⟩ .f32)
    (w : FVec Ideal ⟨1, ![8192]⟩ .f32) (p : Fin 2048) (q : Fin 8192) : EReal :=
  residAt x r p q * rowScale x r p * w (ix1 q)

/-- The normalised, weighted output as an array. -/
def normed (x : FVec Ideal ⟨3, ![8, 2048, 8192]⟩ .f32) (r : FVec Ideal ⟨2, ![2048, 8192]⟩ .f32)
    (w : FVec Ideal ⟨1, ![8192]⟩ .f32) : FVec Ideal ⟨2, ![2048, 8192]⟩ .f32 :=
  fun i => normedAt x r w (i 0) (i 1)

theorem resid_apply (x : FVec Ideal ⟨3, ![8, 2048, 8192]⟩ .f32) (r : FVec Ideal ⟨2, ![2048, 8192]⟩ .f32)
    (p : Fin 2048) (q : Fin 8192) : resid x r (ix2 p q) = residAt x r p q := rfl

theorem normed_apply (x : FVec Ideal ⟨3, ![8, 2048, 8192]⟩ .f32) (r : FVec Ideal ⟨2, ![2048, 8192]⟩ .f32)
    (w : FVec Ideal ⟨1, ![8192]⟩ .f32) (p : Fin 2048) (q : Fin 8192) : normed x r w (ix2 p q) = normedAt x r w p q := rfl

/-- Eight terms added one after the other from the left are the sum over `Fin 8`. -/
theorem sum_left_eight {M : Type*} [AddCommMonoid M] (f : Fin 8 → M) :
    f 0 + f 1 + f 2 + f 3 + f 4 + f 5 + f 6 + f 7 = ∑ k : Fin 8, f k :=
  (Fin.sum_univ_eight f).symm

end Cert.AllReduceNorm

end
-- ==== Proof.RefIsSpec.lean ====
/-
  The reference computes the specification.

  The reference's residual stream is its host sum over the replica axis, started from the zero word, plus the residual:
  `(0 + Σ k, x (k, p, q)) + r (p, q)`, which is the specification's `residAt` since `0` is the sum's neutral element.
  Its output reads the residual stream at `(p, q)`, the row sum of squares at `p` through the keepdims column
  `[2048] → [2048, 1] → [2048, 8192]`, and the weight through `[8192] → [1, 8192] → [2048, 8192]`: one operation at a
  time, then the index maps composed.
-/
import proofs.«153882_j4492535792388_2_alg».proof.Proof.Gen.ReferenceIdeal.Read
import proofs.«153882_j4492535792388_2_alg».proof.Proof.Spec

noncomputable section

open scoped BigOperators

namespace Cert.AllReduceNorm.Ref

open Cert.ReferenceIdeal Cert.ReferenceIdeal.Gen Cert.ReferenceIdeal.Read
open Idealize.ShloMosaic Idealize.ShloMosaic.ValueIdx Cert.AllReduceNorm

/-- The replica sum at `(p, q)` reads replica `k` at `(k, p, q)`. -/
theorem idx_replica (p : Fin 2048) (q : Fin 8192) (k : Fin 8) : idx_main_v0 (ix2 p q) k = ix3 k p q :=
  funext fun a => by match a with | ⟨0, _⟩ => rfl | ⟨1, _⟩ => rfl | ⟨2, _⟩ => rfl

/-- The row sum broadcast back over the row reads, at `(p, q)` and column `c` of the sum, the entry `(p, c)`. -/
theorem idx_row (p : Fin 2048) (q : Fin 8192) (c : Fin 8192) :
    idx_main_v3 (idx_main_v4 (idx_main_v10 (ix2 p q))) c = ix2 p c :=
  funext fun a => by match a with | ⟨0, _⟩ => rfl | ⟨1, _⟩ => rfl

/-- The weight broadcast over the rows reads, at `(p, q)`, the weight's entry `q`. -/
theorem idx_weight (p : Fin 2048) (q : Fin 8192) : idx_main_v12 (idx_main_v13 (ix2 p q)) = ix1 q :=
  funext fun a => by match a with | ⟨0, _⟩ => rfl

/-- The reference's residual stream is the specification's. -/
theorem resid_eq (x : FVec Ideal S8x2048x8192 .f32) (r : FVec Ideal S2048x8192 .f32) :
    val_main_v1 (F := Ideal) x r = resid x r := by
  funext i
  obtain ⟨p, q, rfl⟩ : ∃ (p : Fin 2048) (q : Fin 8192), i = ix2 p q := ⟨i 0, i 1, eq_ix2 i⟩
  rw [val_main_v1_apply, val_main_v0_apply, val_main_cst_apply, resid_apply]
  simp only [idx_replica, Ideal.ofBits_def, Ideal.ofBits_zero_f32, Ideal.addf_def, zero_add]
  rfl

/-- The reference's output is the specification's. -/
theorem normed_eq (x : FVec Ideal S8x2048x8192 .f32) (r : FVec Ideal S2048x8192 .f32) (w : FVec Ideal S8192 .f32) :
    val_main_v14 (F := Ideal) x r w = normed x r w := by
  funext i
  obtain ⟨p, q, rfl⟩ : ∃ (p : Fin 2048) (q : Fin 8192), i = ix2 p q := ⟨i 0, i 1, eq_ix2 i⟩
  rw [val_main_v14_apply, val_main_v11_apply, val_main_v10_apply, val_main_v9_apply, val_main_v8_apply,
    val_main_v6_apply, val_main_v4_apply, val_main_v3_apply, val_main_cst_0_apply, val_main_v5_apply,
    val_main_cst_1_apply, val_main_v7_apply, val_main_cst_2_apply, val_main_v13_apply, val_main_v12_apply,
    normed_apply]
  simp only [val_main_v2_apply, resid_eq, idx_row, idx_weight, resid_apply, Ideal.ofBits_def, Ideal.ofBits_zero_f32,
    Ideal.addf_def, Ideal.mulf_def, Ideal.hostDivf_def, Ideal.hostUnary_rsqrt_def, zero_add]
  rfl

end Cert.AllReduceNorm.Ref

end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.Payload.lean ====
/-
  The kernel body's arithmetic at one entry of a block.

  At a grid point the body holds a `[8, 32, 8192]` block of the replicas, a `[32, 8192]` block of the residual and the
  `[1, 8192]` weight row. Its three pure values are read here at an entry written by its coordinates, over arbitrary
  vectors of the blocks' shapes:
  * the block of the residual stream at `(p, q)` is the eight replica slabs' entries `(0, p, q)` added one after the
    other from the left, plus the residual block's entry (`stream_apply`);
  * the keepdims column of row means of squares at `(p, 0)` is the sum over the row's 8192 entries of the squared
    stream, divided by the word for 8192 (`meansq_apply`);
  * the stored output at `(p, q)` is the stream's entry times the reciprocal square root of the column's entry plus
    `ε`, times the weight row's entry `(0, q)` (`scaled_apply`).
-/
import proofs.«153882_j4492535792388_2_alg».proof.Proof.Gen.KernelIdeal.Skeleton
import proofs.«153882_j4492535792388_2_alg».proof.Proof.LibKeepdims
import Idealize.ShloMosaic.Lib.ValueLayout
import Idealize.ShloMosaic.PureOps.Ideal.Laws

noncomputable section

open scoped BigOperators

namespace Cert.AllReduceNorm.Body

open Cert.KernelIdeal Cert.KernelIdeal.Gen Idealize.ShloMosaic Idealize.ShloMosaic.ValueIdx

/-- The residual-stream block at `(p, q)`: the eight slabs' entries in the body's order, then the residual's. -/
theorem stream_apply (P0 P1 P2 P3 P4 P5 P6 P7 : FVec Ideal S1x32x8192 .f32) (R : FVec Ideal S32x8192 .f32)
    (p : Fin 32) (q : Fin 8192) :
    k0_pay2 (F := Ideal) P0 P1 P2 P3 P4 P5 P6 P7 R (ix2 p q)
      = P0 (ix3 (0 : Fin 1) p q) + P1 (ix3 (0 : Fin 1) p q) + P2 (ix3 (0 : Fin 1) p q) + P3 (ix3 (0 : Fin 1) p q)
        + P4 (ix3 (0 : Fin 1) p q) + P5 (ix3 (0 : Fin 1) p q) + P6 (ix3 (0 : Fin 1) p q) + P7 (ix3 (0 : Fin 1) p q)
        + R (ix2 p q) := by
  unfold k0_pay2
  simp only [addf_apply, shapeCast_1ab_ab_apply]

/-- The column of row means of squares at `(p, u)`: the row's sum of squares over the word for 8192. -/
theorem meansq_apply (P0 P1 P2 P3 P4 P5 P6 P7 : FVec Ideal S1x32x8192 .f32) (R : FVec Ideal S32x8192 .f32)
    (p : Fin 32) (u : Fin 1) :
    k0_pay3 (F := Ideal) P0 P1 P2 P3 P4 P5 P6 P7 R (ix2 p u)
      = Ideal.div (∑ c : Fin 8192, k0_pay2 (F := Ideal) P0 P1 P2 P3 P4 P5 P6 P7 R (ix2 p c) * k0_pay2 (F := Ideal) P0 P1 P2 P3 P4 P5 P6 P7 R (ix2 p c))
          (Ideal.ofBits .f32 0x46000000#32) := by
  unfold k0_pay3
  refine congrArg (fun z => Ideal.div z (Ideal.ofBits .f32 0x46000000#32)) ?_
  refine (shapeCast_a_a1_apply _ _ p u).trans ?_
  exact laneSum_ab_apply _ _ _ _ _ p

/-- The stored output at `(p, q)`: the stream's entry, scaled by the row's reciprocal square root and by the weight. -/
theorem scaled_apply (s : FVec Ideal S32x8192 .f32) (ms : FVec Ideal S32x1 .f32) (e : Ideal .f32)
    (wrow : FVec Ideal S1x8192 .f32) (p : Fin 32) (q : Fin 8192) :
    k0_pay1 (F := Ideal) s ms e wrow (ix2 p q)
      = s (ix2 p q) * Ideal.rsqrt (ms (ix2 p (0 : Fin 1)) + e) * wrow (ix2 (0 : Fin 1) q) := by
  unfold k0_pay1
  simp only [mulf_apply, broadcastTo_a1_ab_apply, broadcastTo_1b_ab_apply, shapeCast_self]
  rfl

end Cert.AllReduceNorm.Body

end
-- ==== Proof.BodyOut.lean ====
/-
  What the body leaves in its two output blocks, as the specification at the block's rows.

  Stated over arbitrary vectors `X0`, `X1`, `X2` of the three input blocks' shapes and arbitrary arrays `A0`, `A1`,
  `A2` of the arguments' shapes, related as a block at row offset `32·T` is to its array: `X0 (k, p, q)` is
  `A0 (k, 32·T + p, q)`, `X1 (p, q)` is `A1 (32·T + p, q)`, and the weight row `X2 (0, q)` is `A2 q`. Then
  * slab `k` of the replica block, loaded through the `[1, 32, 8192]` rectangle at offset `(k, 0, 0)`, reads at
    `(0, p, q)` the block's entry `(k, p, q)` (`ld_slab`);
  * the stream block at `(p, q)` is the specification's residual stream at `(32·T + p, q)`: eight terms added from
    the left are the sum over `Fin 8` (`stream_block`);
  * the second output block is that stream, and the first is the specification's normalised output, both at row
    `32·T + p` (`resid_block`, `normed_block`): the row's mean of squares runs over the same 8192 columns in the block
    as in the array, because a block holds whole rows.
-/
import proofs.«153882_j4492535792388_2_alg».proof.Proof.Gen.KernelIdeal.Frame
import proofs.«153882_j4492535792388_2_alg».proof.Proof.Payload
import proofs.«153882_j4492535792388_2_alg».proof.Proof.Spec
import Idealize.ShloMosaic.Lib.Pipeline.Value

noncomputable section

open scoped BigOperators

namespace Cert.AllReduceNorm.Body

open Cert.KernelIdeal Cert.KernelIdeal.Gen Idealize.ShloMosaic Idealize.ShloMosaic.ValueIdx Cert.AllReduceNorm

theorem zero_offsets : (![0, 0] : Fin 2 → Nat) = fun _ => 0 := funext fun a => by fin_cases a <;> rfl

/-- Slab `o` of a replica block read at `(0, p, q)` is the block at `(o, p, q)`. -/
theorem ld_slab (X : Vec Ideal S8x32x8192 .f32) (o : Nat) (ho : o < 8)
    (inb : ∀ a, (![o, 0, 0] : Fin 3 → Nat) a + S1x32x8192.size a ≤ S8x32x8192.size a) (p : Fin 32) (q : Fin 8192) :
    View.ld (Val := Elt Ideal) X (Rect.unit (s := S8x32x8192) ![o, 0, 0] S1x32x8192.size inb) (ix3 (0 : Fin 1) p q)
      = X (ix3 (⟨o, ho⟩ : Fin 8) p q) := by
  show X _ = X _
  refine congrArg X (funext fun a => Fin.ext ?_)
  match a with
  | ⟨0, _⟩ => show o + 1 * 0 = o; omega
  | ⟨1, _⟩ => show 0 + 1 * p.val = p.val; omega
  | ⟨2, _⟩ => show 0 + 1 * q.val = q.val; omega

section
variable (X0 : Vec Ideal S8x32x8192 .f32) (X1 : Vec Ideal S32x8192 .f32) (X2 : Vec Ideal S1x8192 .f32)
  (A0 : FVec Ideal S8x2048x8192 .f32) (A1 : FVec Ideal S2048x8192 .f32) (A2 : FVec Ideal S8192 .f32)
  (T : Nat) (hT : T < 64)
  (h0 : ∀ (k : Fin 8) (p : Fin 32) (q : Fin 8192), X0 (ix3 k p q) = A0 (ix3 k (⟨32 * T + p.val, by omega⟩ : Fin 2048) q))
  (h1 : ∀ (p : Fin 32) (q : Fin 8192), X1 (ix2 p q) = A1 (ix2 (⟨32 * T + p.val, by omega⟩ : Fin 2048) q))
  (h2 : ∀ q : Fin 8192, X2 (ix2 (0 : Fin 1) q) = A2 (ix1 q))

include h0 h1 in
/-- The stream block at `(p, q)` is the residual stream at row `32·T + p`. -/
theorem stream_block (p : Fin 32) (q : Fin 8192) :
    k0_pay2 (F := Ideal) (View.ld (Val := Elt Ideal) X0 r0_0) (View.ld (Val := Elt Ideal) X0 r0_1) (View.ld (Val := Elt Ideal) X0 r0_2) (View.ld (Val := Elt Ideal) X0 r0_3) (View.ld (Val := Elt Ideal) X0 r0_4)
        (View.ld (Val := Elt Ideal) X0 r0_5) (View.ld (Val := Elt Ideal) X0 r0_6) (View.ld (Val := Elt Ideal) X0 r0_7) (View.ld (Val := Elt Ideal) X1 r0_8) (ix2 p q)
      = residAt A0 A1 (⟨32 * T + p.val, by omega⟩ : Fin 2048) q := by
  rw [stream_apply, ld_slab X0 0 (by decide), ld_slab X0 1 (by decide), ld_slab X0 2 (by decide),
    ld_slab X0 3 (by decide), ld_slab X0 4 (by decide), ld_slab X0 5 (by decide), ld_slab X0 6 (by decide),
    ld_slab X0 7 (by decide), View.ld_unit_zero zero_offsets]
  simp only [h0, h1]
  exact congrArg (· + A1 (ix2 (⟨32 * T + p.val, by omega⟩ : Fin 2048) q))
    (sum_left_eight fun k : Fin 8 => A0 (ix3 k (⟨32 * T + p.val, by omega⟩ : Fin 2048) q))

include h0 h1 in
/-- The second output block is the residual stream at the block's rows. -/
theorem resid_block (p : Fin 32) (q : Fin 8192) :
    out0_4 (F := Ideal) X0 X1 X2 (ix2 p q) = residAt A0 A1 (⟨32 * T + p.val, by omega⟩ : Fin 2048) q := by
  unfold out0_4
  rw [View.canon_unit_zero zero_offsets]
  exact stream_block X0 X1 A0 A1 T hT h0 h1 p q

include h0 h1 h2 in
/-- The first output block is the normalised, weighted output at the block's rows. -/
theorem normed_block (p : Fin 32) (q : Fin 8192) :
    out0_3 (F := Ideal) X0 X1 X2 (ix2 p q) = normedAt A0 A1 A2 (⟨32 * T + p.val, by omega⟩ : Fin 2048) q := by
  unfold out0_3
  rw [View.canon_unit_zero zero_offsets, scaled_apply, meansq_apply]
  simp only [stream_block X0 X1 A0 A1 T hT h0 h1]
  rw [View.ld_unit_zero zero_offsets, h2]
  rfl

end

end Cert.AllReduceNorm.Body

end
-- ==== Proof.Blocks.lean ====
/-
  From blocks to arrays: what the kernel's two result arrays hold after the run.

  The grid has 64 points; point `t` works on rows `32·t … 32·t + 31`. Its replica block is rows `32·t …` of all eight
  replicas, its residual block the same rows of the residual, and its weight block the whole weight row, which the host
  made from the weight vector by a reshape `[8192] → [1, 8192]` before the launch. Each output window writes its block
  back to the same rows of its array. So
  * an input block's entry is the argument array's entry at the shifted row (`replicas_read`, `residual_read`,
    `weights_read`; the block indices are decided once over the 64 points, `index_facts`);
  * what point `t` writes back is block `t` of the specification's arrays (`flushed_normed`, `flushed_resid`);
  * every row lies in the block of the point `row / 32`, so the blocks cover the arrays (`cover_normed`,
    `cover_resid`) and the arrays end holding the specification (`final_normed`, `final_resid`, `run`).
-/
import proofs.«153882_j4492535792388_2_alg».proof.Proof.Gen.KernelIdeal.Value
import proofs.«153882_j4492535792388_2_alg».proof.Proof.BodyOut
import Idealize.ShloMosaic.Lib.Pipeline.Value
import Idealize.ShloMosaic.Lib.ValueLayout
import Idealize.ShloMosaic.Lib.StableHlo.Run

noncomputable section

open scoped BigOperators

namespace Cert.AllReduceNorm.Kernel

open Cert.KernelIdeal Cert.KernelIdeal.Gen Cert.KernelIdeal.Value
open Idealize.ShloMosaic Idealize.ShloMosaic.TcCoe Idealize.SL.Sem Idealize.ShloMosaic.ValueIdx Cert.AllReduceNorm
open Idealize.ShloMosaic.Pipeline (Dat)

variable (m : (ℓ : Loc nD τ sig) → Buf (Elt Ideal) ℓ) (ρ : Dev nD → PrngReg)

/-- A grid point is one of 64. -/
theorem point_lt (t : Fin cfg0.N) : t.val < 64 := by
  have h : t.val < cfg0.N := t.isLt
  have hN : cfg0.N = 64 := N_0
  omega

/-- The printed index maps, decided over the grid: the replica block moves along the rows only, the residual block and
    both output blocks move with it, and the weight block never moves. -/
theorem index_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The input blocks as rows of the arguments -/

/-- The replica block at point `t`, entry `(k, p, q)`, is the replicas' entry `(k, 32·t + p, q)`. -/
theorem replicas_read (c : Dev nD) (t : Fin cfg0.N) (k : Fin 8) (p : Fin 32) (q : Fin 8192) :
    (iblk m c 0 t : Vec Ideal S8x32x8192 .f32) (ix3 k p q)
      = (m ((c : Thread nD τ).loc main_arg0) : FVec Ideal S8x2048x8192 .f32)
          (ix3 k (⟨32 * t.val + p.val, by have := point_lt t; omega⟩ : Fin 2048) q) := by
  obtain ⟨e0, e1, e2, -⟩ := index_facts t
  unfold iblk
  rw [View.read_apply]
  show V m c main_arg0 _ = _
  rw [V_main_arg0]
  refine congrArg _ (funext fun a => Fin.ext ?_)
  match a with
  | ⟨0, _⟩ => show win0_0.index t (0 : Fin 3) * 8 + 1 * k.val = k.val; omega
  | ⟨1, _⟩ => show win0_0.index t (1 : Fin 3) * 32 + 1 * p.val = 32 * t.val + p.val; omega
  | ⟨2, _⟩ => show win0_0.index t (2 : Fin 3) * 8192 + 1 * q.val = q.val; omega

/-- The residual block at point `t`, entry `(p, q)`, is the residual's entry `(32·t + p, q)`. -/
theorem residual_read (c : Dev nD) (t : Fin cfg0.N) (p : Fin 32) (q : Fin 8192) :
    (iblk m c 1 t : Vec Ideal S32x8192 .f32) (ix2 p q)
      = (m ((c : Thread nD τ).loc main_arg1) : FVec Ideal S2048x8192 .f32)
          (ix2 (⟨32 * t.val + p.val, by have := point_lt t; omega⟩ : Fin 2048) q) := by
  obtain ⟨-, -, -, e0, e1, -⟩ := index_facts t
  unfold iblk
  rw [View.read_apply]
  show V m c main_arg1 _ = _
  rw [V_main_arg1]
  refine congrArg _ (funext fun a => Fin.ext ?_)
  match a with
  | ⟨0, _⟩ => show win0_1.index t (0 : Fin 2) * 32 + 1 * p.val = 32 * t.val + p.val; omega
  | ⟨1, _⟩ => show win0_1.index t (1 : Fin 2) * 8192 + 1 * q.val = q.val; omega

/-- The weight row the region finds is the weight vector reshaped to one row. -/
theorem weight_row (c : Dev nD) :
    (V m c main_v0 : S1x8192.Idx → EReal)
      = shapeCast S1x8192 (m ((c : Thread nD τ).loc main_arg2) : FVec Ideal S8192 .f32) shapeCasts_S8192_S1x8192 := by
  dsimp only [V, hostOps0]
  after_results
  rfl

/-- The weight block at any point, entry `(0, q)`, is the weight vector's entry `q`. -/
theorem weights_read (c : Dev nD) (t : Fin cfg0.N) (q : Fin 8192) :
    (iblk m c 2 t : Vec Ideal S1x8192 .f32) (ix2 (0 : Fin 1) q)
      = (m ((c : Thread nD τ).loc main_arg2) : FVec Ideal S8192 .f32) (ix1 q) := by
  obtain ⟨-, -, -, -, -, e0, e1, -⟩ := index_facts t
  unfold iblk
  rw [View.read_apply]
  show V m c main_v0 _ = _
  rw [weight_row]
  refine (congrArg _ (funext fun a => Fin.ext ?_)).trans (shapeCast_a_1a_apply _ _ (0 : Fin 1) q)
  match a with
  | ⟨0, _⟩ => show win0_2.index t (0 : Fin 2) * 1 + 1 * 0 = 0; omega
  | ⟨1, _⟩ => show win0_2.index t (1 : Fin 2) * 8192 + 1 * q.val = q.val; omega

/-! ## What a point writes back -/

/-- An entry `(p, q)` of an output block at point `t` sits at `(32·t + p, q)` of its array (first output). -/
theorem emb_normed (t : Fin cfg0.N) (p : Fin 32) (q : Fin 8192) :
    ((cfg0.win 3).blk t).view.emb (ix2 p q)
      = (ix2 (⟨32 * t.val + p.val, by have := point_lt t; omega⟩ : Fin 2048) q : S2048x8192.Idx) := by
  obtain ⟨-, -, -, -, -, -, -, e0, e1, -⟩ := index_facts t
  refine funext fun a => Fin.ext ?_
  match a with
  | ⟨0, _⟩ => show win0_3.index t (0 : Fin 2) * 32 + 1 * p.val = 32 * t.val + p.val; omega
  | ⟨1, _⟩ => show win0_3.index t (1 : Fin 2) * 8192 + 1 * q.val = q.val; omega

/-- The same for the second output. -/
theorem emb_resid (t : Fin cfg0.N) (p : Fin 32) (q : Fin 8192) :
    ((cfg0.win 4).blk t).view.emb (ix2 p q)
      = (ix2 (⟨32 * t.val + p.val, by have := point_lt t; omega⟩ : Fin 2048) q : S2048x8192.Idx) := by
  obtain ⟨-, -, -, -, -, -, -, -, -, e0, e1⟩ := index_facts t
  refine funext fun a => Fin.ext ?_
  match a with
  | ⟨0, _⟩ => show win0_4.index t (0 : Fin 2) * 32 + 1 * p.val = 32 * t.val + p.val; omega
  | ⟨1, _⟩ => show win0_4.index t (1 : Fin 2) * 8192 + 1 * q.val = q.val; omega

/-- What point `t` writes back to the first result is block `t` of the normalised, weighted output. -/
theorem flushed_normed (c : Dev nD) (t : Fin cfg0.N) :
    (dats m 0 c).flushed 3 t = ((cfg0.win 3).blk t).view.read (Elt Ideal)
      (normed (m ((c : Thread nD τ).loc main_arg0)) (m ((c : Thread nD τ).loc main_arg1)) (m ((c : Thread nD τ).loc main_arg2))) := by
  rw [flushed3]
  funext j
  obtain ⟨p, q, rfl⟩ : ∃ (p : Fin 32) (q : Fin 8192), j = ix2 p q := ⟨j 0, j 1, eq_ix2 j⟩
  rw [View.read_apply]
  show out0_3 (iblk m c 0 t) (iblk m c 1 t) (iblk m c 2 t) (ix2 p q) = normed _ _ _ (((cfg0.win 3).blk t).view.emb (ix2 p q))
  rw [emb_normed, normed_apply]
  exact Body.normed_block (iblk m c 0 t) (iblk m c 1 t) (iblk m c 2 t) _ _ _ t.val (point_lt t)
    (replicas_read m c t) (residual_read m c t) (weights_read m c t) p q

/-- What point `t` writes back to the second result is block `t` of the residual stream. -/
theorem flushed_resid (c : Dev nD) (t : Fin cfg0.N) :
    (dats m 0 c).flushed 4 t = ((cfg0.win 4).blk t).view.read (Elt Ideal)
      (resid (m ((c : Thread nD τ).loc main_arg0)) (m ((c : Thread nD τ).loc main_arg1))) := by
  rw [flushed4]
  funext j
  obtain ⟨p, q, rfl⟩ : ∃ (p : Fin 32) (q : Fin 8192), j = ix2 p q := ⟨j 0, j 1, eq_ix2 j⟩
  rw [View.read_apply]
  show out0_4 (iblk m c 0 t) (iblk m c 1 t) (iblk m c 2 t) (ix2 p q) = resid _ _ (((cfg0.win 4).blk t).view.emb (ix2 p q))
  rw [emb_resid, resid_apply]
  exact Body.resid_block (iblk m c 0 t) (iblk m c 1 t) (iblk m c 2 t) _ _ t.val (point_lt t)
    (replicas_read m c t) (residual_read m c t) p q

/-! ## The blocks cover the arrays -/

/-- An index of the first result is in point `t`'s block iff each coordinate is in the block's range on its axis. -/
theorem mem_blk_normed (t : Fin cfg0.N) (i : S2048x8192.Idx) :
    i ∈ ((cfg0.win 3).blk t).view.set ↔ ∀ a : Fin 2, win0_3.index t a * S32x8192.size a ≤ (i a).val
      ∧ (i a).val < win0_3.index t a * S32x8192.size a + S32x8192.size a := by
  show i ∈ ((View.whole main_v1_0).slice (win0_3.rect t)).set ↔ _
  rw [View.set_slice_whole, Rect.mem_set_unit]
  exact Iff.rfl

/-- The same for the second result. -/
theorem mem_blk_resid (t : Fin cfg0.N) (i : S2048x8192.Idx) :
    i ∈ ((cfg0.win 4).blk t).view.set ↔ ∀ a : Fin 2, win0_4.index t a * S32x8192.size a ≤ (i a).val
      ∧ (i a).val < win0_4.index t a * S32x8192.size a + S32x8192.size a := by
  show i ∈ ((View.whole main_v1_1).slice (win0_4.rect t)).set ↔ _
  rw [View.set_slice_whole, Rect.mem_set_unit]
  exact Iff.rfl

/-- Row `r` of the first result lies in the block of point `r / 32`. -/
theorem cover_normed (i : S2048x8192.Idx) :
    ∃ t : Fin cfg0.N, (cfg0.win 3).flush t = true ∧ i ∈ ((cfg0.win 3).blk t).view.set := by
  have hi0 : (i 0).val < 2048 := (i 0).isLt
  have hi1 : (i 1).val < 8192 := (i 1).isLt
  have hN : cfg0.N = 64 := N_0
  refine ⟨⟨(i 0).val / 32, by rw [hN]; omega⟩, flush0_3 _, ?_⟩
  obtain ⟨-, -, -, -, -, -, -, e0, e1, -⟩ := index_facts ⟨(i 0).val / 32, by rw [hN]; omega⟩
  rw [mem_blk_normed]
  intro a
  match a with
  | ⟨0, _⟩ =>
    show win0_3.index _ (0 : Fin 2) * 32 ≤ (i 0).val ∧ (i 0).val < win0_3.index _ (0 : Fin 2) * 32 + 32
    rw [e0]; show (i 0).val / 32 * 32 ≤ (i 0).val ∧ (i 0).val < (i 0).val / 32 * 32 + 32; omega
  | ⟨1, _⟩ =>
    show win0_3.index _ (1 : Fin 2) * 8192 ≤ (i 1).val ∧ (i 1).val < win0_3.index _ (1 : Fin 2) * 8192 + 8192
    rw [e1]; omega

/-- The same for the second result. -/
theorem cover_resid (i : S2048x8192.Idx) :
    ∃ t : Fin cfg0.N, (cfg0.win 4).flush t = true ∧ i ∈ ((cfg0.win 4).blk t).view.set := by
  have hi0 : (i 0).val < 2048 := (i 0).isLt
  have hi1 : (i 1).val < 8192 := (i 1).isLt
  have hN : cfg0.N = 64 := N_0
  refine ⟨⟨(i 0).val / 32, by rw [hN]; omega⟩, flush0_4 _, ?_⟩
  obtain ⟨-, -, -, -, -, -, -, -, -, e0, e1⟩ := index_facts ⟨(i 0).val / 32, by rw [hN]; omega⟩
  rw [mem_blk_resid]
  intro a
  match a with
  | ⟨0, _⟩ =>
    show win0_4.index _ (0 : Fin 2) * 32 ≤ (i 0).val ∧ (i 0).val < win0_4.index _ (0 : Fin 2) * 32 + 32
    rw [e0]; show (i 0).val / 32 * 32 ≤ (i 0).val ∧ (i 0).val < (i 0).val / 32 * 32 + 32; omega
  | ⟨1, _⟩ =>
    show win0_4.index _ (1 : Fin 2) * 8192 ≤ (i 1).val ∧ (i 1).val < win0_4.index _ (1 : Fin 2) * 8192 + 8192
    rw [e1]; omega

/-! ## The arrays after the run -/

/-- The first result array ends holding the normalised, weighted output. -/
theorem final_normed (c : Dev nD) : (dats m 0 c).arrAt 3 cfg0.N
    = normed (m ((c : Thread nD τ).loc main_arg0)) (m ((c : Thread nD τ).loc main_arg1)) (m ((c : Thread nD τ).loc main_arg2)) :=
  (dats m 0 c).arrAt_eq_of_cover 3 _ (fun t _ => flushed_normed m c t) cover_normed

/-- The second result array ends holding the residual stream. -/
theorem final_resid (c : Dev nD) : (dats m 0 c).arrAt 4 cfg0.N
    = resid (m ((c : Thread nD τ).loc main_arg0)) (m ((c : Thread nD τ).loc main_arg1)) :=
  (dats m 0 c).arrAt_eq_of_cover 4 _ (fun t _ => flushed_resid m c t) cover_resid

/-- The kernel's run: every weakly fair execution ends with the two result arrays at the specification of the launch
    contents of the arguments, and the arguments unchanged. -/
theorem run : θ_run defs (onTc (τ := τ) (main (F := Ideal))) ⟨m, fun _ => 0, ρ⟩ fun r => ∀ c : Dev nD,
      r.2.mem ((c : Thread nD τ).loc main_v1_0)
        = normed (m ((c : Thread nD τ).loc main_arg0)) (m ((c : Thread nD τ).loc main_arg1)) (m ((c : Thread nD τ).loc main_arg2))
      ∧ r.2.mem ((c : Thread nD τ).loc main_v1_1)
        = resid (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_normed m c), (h c).2.1.trans (final_resid m c), (h c).2.2⟩)
    (run_blocks m ρ)

end Cert.AllReduceNorm.Kernel

end
-- ==== Proof.lean ====
/-
  The certificate of an all-reduce fused with a residual add and an RMS normalisation.

  Eight replicas of a `[2048, 8192]` activation are summed and a residual added, giving the residual stream `s`; each
  row of `s` is scaled by the reciprocal square root of its mean square plus `ε` and each column by a weight. The
  kernel does this 32 rows at a time over a grid of 64 points, adding the replicas one after the other; the reference
  does it on whole arrays with a host sum over the replica axis. On the extended reals both are the functions
  `normed` and `resid` of Proof/Spec.lean:
  * the reference, one operation at a time (Proof/RefIsSpec.lean, over its generated run and read-at-an-index lemmas);
  * the kernel, from the body's arithmetic at an entry of a block (Proof/Payload.lean), what the body leaves in its two
    output blocks (Proof/BodyOut.lean), and the blocks tiling the arrays (Proof/Blocks.lean, over the generated frame
    run with its result arrays named).
  The two sides differ only in how the eight replicas are added, and addition on the extended reals is associative and
  commutative with neutral element `0`: no entry needs to be finite, and the precondition is never opened. The divisor
  8192, `ε`, the division and the reciprocal square root are the same words and the same operations on both sides.
  The three frames are the generated ones (the reference's is its generated run with the results dropped), and the
  kernel's idealization rewrote nothing, so `preserves` has nothing to state.
-/
import proofs.«153882_j4492535792388_2_alg».proof.Defs
import proofs.«153882_j4492535792388_2_alg».proof.Proof.Gen.Kernel
import proofs.«153882_j4492535792388_2_alg».proof.Proof.Gen.Kernel.Frame
import proofs.«153882_j4492535792388_2_alg».proof.Proof.Gen.KernelIdeal
import proofs.«153882_j4492535792388_2_alg».proof.Proof.Gen.KernelIdeal.Frame
import proofs.«153882_j4492535792388_2_alg».proof.Proof.Gen.KernelIdeal.Value
import proofs.«153882_j4492535792388_2_alg».proof.Proof.Gen.ReferenceIdeal
import proofs.«153882_j4492535792388_2_alg».proof.Proof.Gen.ReferenceIdeal.Run
import proofs.«153882_j4492535792388_2_alg».proof.Proof.Gen.ReferenceIdeal.Read
import proofs.«153882_j4492535792388_2_alg».proof.Proof.Gen.Pre_finite_inputs
import proofs.«153882_j4492535792388_2_alg».proof.Proof.RefIsSpec
import proofs.«153882_j4492535792388_2_alg».proof.Proof.Blocks
import Idealize.ShloMosaic.Adequacy
import Idealize.ShloMosaic.Init

noncomputable section

namespace Cert.Proof

open Idealize.ShloMosaic Idealize.ShloMosaic.TcCoe Idealize.SL.Sem Cert.AllReduceNorm

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the three arguments, the kernel's result arrays end at `normed` and `resid` of its
    arguments (Proof/Blocks.lean) and the reference's at its operations' composed term, which is the same two
    functions of the same arguments (Proof/RefIsSpec.lean). -/
theorem algebraic : Cert.algebraic_KernelIdeal_ReferenceIdeal := by
  intro m ρ m' ρ' _ hagree
  refine ⟨fun c => normed (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => resid (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Kernel.run m ρ, ?_⟩
  refine (θ_run Cert.ReferenceIdeal.defs _ _).mono (fun _ h c => ?_) (Cert.ReferenceIdeal.Value.run (F := Ideal) m' ρ')
  refine ⟨(h c).1.trans ?_, (h c).2.1.trans ?_, (h c).2.2⟩
  · rw [Cert.ReferenceIdeal.Read.val_main_v14_eq, Ref.normed_eq, (hagree c).1, (hagree c).2.1, (hagree c).2.2]
  · rw [Cert.ReferenceIdeal.Read.val_main_v1_eq, Ref.resid_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
